-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1 : Shape := ⟨1, ![1]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S4096x1024 .f32) (main_arg10 : FVec F S4096x1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_v48 main_v49 main_v50

def fn_part1 {F : FTy → Type} [FloatOps F] (main_arg4 : FVec F S1 .f32) (main_arg5 : FVec F S4096x1024 .f32) (main_arg6 : FVec F S4096x1024 .f32) (main_arg7 : FVec F S4096 .f32) (main_arg8 : FVec F S4096 .f32) (main_arg9 : FVec F S4096x1024 .f32) (main_arg10 : FVec F S4096x1024 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S1 .f32) (main_arg4 : FVec F S1 .f32) (main_arg5 : FVec F S4096x1024 .f32) (main_arg6 : FVec F S4096x1024 .f32) (main_arg7 : FVec F S4096 .f32) (main_arg8 : FVec F S4096 .f32) (main_arg9 : FVec F S4096x1024 .f32) (main_arg10 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1 : Shape := ⟨1, ![1]⟩
abbrev S4096 : Shape := ⟨1, ![4096]⟩
abbrev S128x1024 : Shape := ⟨2, ![128, 1024]⟩
abbrev S128x4096 : Shape := ⟨2, ![128, 4096]⟩
abbrev S1x4096 : Shape := ⟨2, ![1, 4096]⟩
abbrev S1x1 : Shape := ⟨2, ![1, 1]⟩

abbrev nBuf : Space → Nat
  | .hbm => 17
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1, .f32⟩
  | .hbm, ⟨4, _⟩ => ⟨S1, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S1, .f32⟩
  | .hbm, ⟨14, _⟩ => ⟨S1, .f32⟩
  | .hbm, ⟨15, _⟩ => ⟨S4096x1024, .f32⟩
  | .hbm, ⟨16, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S4096x1024, .bf16⟩
  | .local _ .vmem, ⟨11, _⟩ => ⟨S4096x1024, .bf16⟩
  | .local _ .vmem, ⟨12, _⟩ => ⟨S4096, .f32⟩
  | .local _ .vmem, ⟨13, _⟩ => ⟨S4096, .f32⟩
  | .local _ .vmem, ⟨14, _⟩ => ⟨S1, .f32⟩
  | .local _ .vmem, ⟨15, _⟩ => ⟨S1, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S128x1024 : S1x1.Broadcasts S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S4096x1024.size a
  hwx0_3 : ∀ i : grid0.Coords, EltTy.bits .f32 = 32 ∨ (Rect.block (s := S4096x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S4096x1024.size a
  hwx0_4 : ∀ i : grid0.Coords, EltTy.bits .f32 = 32 ∨ (Rect.block (s := S4096x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x1024.size a ≤ S4096x1024.size a
  hwx0_6 : ∀ i : grid0.Coords, EltTy.bits .bf16 = 32 ∨ (Rect.block (s := S4096x1024) S4096x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S4096.size a
  hwx0_7 : ∀ i : grid0.Coords, EltTy.bits .f32 = 32 ∨ (Rect.block (s := S4096) S4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S4096.size a
  hwx0_8 : ∀ i : grid0.Coords, EltTy.bits .f32 = 32 ∨ (Rect.block (s := S4096) S4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S4096x1024.size a
  hwx0_12 : ∀ i : grid0.Coords, EltTy.bits .f32 = 32 ∨ (Rect.block (s := S4096x1024) S128x1024.size (cc0_transform_12 i) (hinb0_12 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4096x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S128x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S128x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1 : Shape := ⟨1, ![1]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1, .f32⟩
  | .hbm, ⟨4, _⟩ => ⟨S1, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S1024x4096, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1, .f32⟩
  | .hbm, ⟨55, _⟩ => ⟨S1x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1, .f32⟩
  | .hbm, ⟨62, _⟩ => ⟨S1x1, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LstmSpec.lean ====
/-
  One step of a noisy LSTM cell, entry by entry, on the extended reals.

  The batch has 4096 rows, the input and the hidden state 1024 features each, so the four gates together have
  4 · 1024 = 4096 pre-activation columns: columns 0 … 1023 the input gate, 1024 … 2047 the forget gate, 2048 … 3071
  the cell candidate, 3072 … 4095 the output gate. For batch row r and pre-activation column j

      pre r j = ∑ k, x (r, k) · W_ih (j, k)  +  ∑ k, h (r, k) · W_hh (j, k)  +  b_ih j  +  b_hh j

  (row r of the input against ROW j of the input weights, row r of the hidden state against row j of the hidden
  weights, then the two biases), and for feature q

      cy r q = σ (pre r (q + 1024)) · cx (r, q) + σ (pre r q) · tanh (pre r (q + 2048)) + √noise_e · eps_c (r, q)
      hy r q = σ (pre r (q + 3072)) · tanh (cy r q) + √noise_q · eps_h (r, q)

  with σ the logistic function 1 / (1 + e^(-z)). Every operation is the exact one on the extended reals; nothing here
  asks the entries to be finite.
-/
import Idealize.ShloMosaic.PureOps.Ideal
import Idealize.ShloMosaic.Lib.ValueIdx

noncomputable section

open scoped BigOperators

namespace Cert.LstmCell

open Idealize.ShloMosaic Idealize.ShloMosaic.ValueIdx

/-- The batch-by-feature matrices, and the two weight matrices (4 · 1024 rows of 1024). -/
abbrev Mat : Shape := ⟨2, ![4096, 1024]⟩
/-- A bias: one entry per pre-activation column. -/
abbrev Col : Shape := ⟨1, ![4096]⟩
/-- A noise level: one number. -/
abbrev One : Shape := ⟨1, ![1]⟩

/-- Feature q's column in the input gate's quarter of the pre-activations. -/
def colI (q : Fin 1024) : Fin 4096 := ⟨q.val, by have := q.isLt; omega⟩
/-- Feature q's column in the forget gate's quarter. -/
def colF (q : Fin 1024) : Fin 4096 := ⟨q.val + 1024, by have := q.isLt; omega⟩
/-- Feature q's column in the cell candidate's quarter. -/
def colG (q : Fin 1024) : Fin 4096 := ⟨q.val + 2048, by have := q.isLt; omega⟩
/-- Feature q's column in the output gate's quarter. -/
def colO (q : Fin 1024) : Fin 4096 := ⟨q.val + 3072, by have := q.isLt; omega⟩

/-- The pre-activation of column j for batch row r: both products, then both biases. -/
def pre (x h wih whh : Mat.Idx → EReal) (bih bhh : Col.Idx → EReal) (r j : Fin 4096) : EReal :=
  (∑ k : Fin 1024, x (ix2 r k) * wih (ix2 j k)) + (∑ k : Fin 1024, h (ix2 r k) * whh (ix2 j k)) + bih (ix1 j) + bhh (ix1 j)

/-- The new cell state at (r, q). -/
def cyAt (x h cx : Mat.Idx → EReal) (ne : One.Idx → EReal) (wih whh : Mat.Idx → EReal) (bih bhh : Col.Idx → EReal)
    (epsc : Mat.Idx → EReal) (r : Fin 4096) (q : Fin 1024) : EReal :=
  Ideal.logistic (pre x h wih whh bih bhh r (colF q)) * cx (ix2 r q)
    + Ideal.logistic (pre x h wih whh bih bhh r (colI q)) * Ideal.tanh (pre x h wih whh bih bhh r (colG q))
    + Ideal.sqrt (ne (ix1 0)) * epsc (ix2 r q)

/-- The new hidden state at (r, q). -/
def hyAt (x h cx : Mat.Idx → EReal) (nq ne : One.Idx → EReal) (wih whh : Mat.Idx → EReal) (bih bhh : Col.Idx → EReal)
    (epsc epsh : Mat.Idx → EReal) (r : Fin 4096) (q : Fin 1024) : EReal :=
  Ideal.logistic (pre x h wih whh bih bhh r (colO q)) * Ideal.tanh (cyAt x h cx ne wih whh bih bhh epsc r q)
    + Ideal.sqrt (nq (ix1 0)) * epsh (ix2 r q)

/-- The new cell state as an array. -/
def cy (x h cx : Mat.Idx → EReal) (ne : One.Idx → EReal) (wih whh : Mat.Idx → EReal) (bih bhh : Col.Idx → EReal)
    (epsc : Mat.Idx → EReal) : Mat.Idx → EReal :=
  fun i => cyAt x h cx ne wih whh bih bhh epsc (i 0) (i 1)

/-- The new hidden state as an array. -/
def hy (x h cx : Mat.Idx → EReal) (nq ne : One.Idx → EReal) (wih whh : Mat.Idx → EReal) (bih bhh : Col.Idx → EReal)
    (epsc epsh : Mat.Idx → EReal) : Mat.Idx → EReal :=
  fun i => hyAt x h cx nq ne wih whh bih bhh epsc epsh (i 0) (i 1)

/-- The f32 pattern of one is the number one. -/
theorem one_f32 : Ideal.ofBits .f32 0x3F800000#32 = 1 := by
  simp [Ideal.ofBits, Ideal.ieee, -EReal.coe_mul]; norm_num

/-- The logistic function spelt with the host's operations: 1 / (1 + e^(-z)) with the f32 pattern of one. -/
theorem logistic_spelt (z : EReal) :
    Ideal.div (Ideal.ofBits .f32 0x3F800000#32) (Ideal.ofBits .f32 0x3F800000#32 + Ideal.exp (-z)) = Ideal.logistic z := by
  rw [one_f32]; rfl

end Cert.LstmCell

end
-- ==== Proof.RefIsCell.lean ====
/-
  The reference, read entry by entry, is the cell of LstmSpec.

  The reference forms the pre-activations as ((x · W_ihᵀ + b_ih) + h · W_hhᵀ) + b_hh over the whole batch — each product
  a contraction of the input's columns with the rows of the transposed weight matrix, that is with the COLUMNS of the
  weights as given —, cuts the four gates out as column ranges, spells the logistic function 1 / (1 + e^(-z)) with a
  negation, an exponential, a sum and a quotient, and combines. Entry (r, q) of each stage is read off the stage before it;
  the only law used is that a sum of four extended reals may be taken in another order.
-/
import proofs.«128448_j54614804136122_1_alg».proof.Proof.Gen.ReferenceIdeal.Read
import proofs.«128448_j54614804136122_1_alg».proof.Proof.LstmSpec

noncomputable section

open scoped BigOperators

namespace Cert.LstmCell.Ref

open Cert.ReferenceIdeal Cert.ReferenceIdeal.Read Idealize.ShloMosaic Idealize.ShloMosaic.ValueIdx Cert.LstmCell

variable (x0 x1 x2 : Mat.Idx → EReal) (x3 x4 : One.Idx → EReal) (x5 x6 : Mat.Idx → EReal) (x7 x8 : Col.Idx → EReal)
  (x9 x10 : Mat.Idx → EReal)

/-- Row r of the first operand against column j of the transposed weights: the weights' row j. -/
theorem dot_ih (r j : Fin 4096) :
    val_main_v1 (F := Ideal) x0 x5 (ix2 r j) = ∑ k : Fin 1024, x0 (ix2 r k) * x5 (ix2 j k) := by
  rw [val_main_v1_apply]
  refine Finset.sum_congr rfl fun k _ => ?_
  rw [val_main_v0_apply]
  have e1 : lidx_main_v1 (ix2 r j) k = ix2 r k := funext fun a => Fin.ext (by match a with | ⟨0, _⟩ => rfl | ⟨1, _⟩ => rfl)
  have e2 : idx_main_v0 (ridx_main_v1 (ix2 r j) k) = ix2 j k := funext fun a => Fin.ext (by match a with | ⟨0, _⟩ => rfl | ⟨1, _⟩ => rfl)
  rw [e1, e2]

/-- The same for the hidden state against the hidden weights. -/
theorem dot_hh (r j : Fin 4096) :
    val_main_v6 (F := Ideal) x1 x6 (ix2 r j) = ∑ k : Fin 1024, x1 (ix2 r k) * x6 (ix2 j k) := by
  rw [val_main_v6_apply]
  refine Finset.sum_congr rfl fun k _ => ?_
  rw [val_main_v5_apply]
  have e1 : lidx_main_v6 (ix2 r j) k = ix2 r k := funext fun a => Fin.ext (by match a with | ⟨0, _⟩ => rfl | ⟨1, _⟩ => rfl)
  have e2 : idx_main_v5 (ridx_main_v6 (ix2 r j) k) = ix2 j k := funext fun a => Fin.ext (by match a with | ⟨0, _⟩ => rfl | ⟨1, _⟩ => rfl)
  rw [e1, e2]

/-- A bias laid as a row and repeated down the batch reads its column's entry. -/
theorem bias_ih (r j : Fin 4096) : val_main_v3 (F := Ideal) x7 (ix2 r j) = x7 (ix1 j) := by
  rw [val_main_v3_apply, val_main_v2_apply]
  exact congrArg x7 (funext fun a => Fin.ext (by match a with | ⟨0, _⟩ => rfl))

theorem bias_hh (r j : Fin 4096) : val_main_v9 (F := Ideal) x8 (ix2 r j) = x8 (ix1 j) := by
  rw [val_main_v9_apply, val_main_v8_apply]
  exact congrArg x8 (funext fun a => Fin.ext (by match a with | ⟨0, _⟩ => rfl))

/-- The reference's pre-activations: its sum ((a + b_ih) + c) + b_hh is (a + c) + b_ih + b_hh. -/
theorem pre_eq (r j : Fin 4096) :
    val_main_v10 (F := Ideal) x0 x1 x5 x6 x7 x8 (ix2 r j) = pre x0 x1 x5 x6 x7 x8 r j := by
  rw [val_main_v10_apply, val_main_v7_apply, val_main_v4_apply, dot_ih, dot_hh, bias_ih, bias_hh]
  show _ + _ + _ + _ = _
  unfold pre
  exact congrArg (· + x8 (ix1 j)) (add_right_comm _ _ _)

/-- The four gates' column ranges. -/
theorem gateI (r : Fin 4096) (q : Fin 1024) :
    val_main_v11 (F := Ideal) x0 x1 x5 x6 x7 x8 (ix2 r q) = pre x0 x1 x5 x6 x7 x8 r (colI q) := by
  rw [val_main_v11_apply]
  have e : idx_main_v11 (ix2 r q) = ix2 r (colI q) := funext fun a => Fin.ext (by match a with | ⟨0, _⟩ => rfl | ⟨1, _⟩ => rfl)
  rw [e, pre_eq]

theorem gateF (r : Fin 4096) (q : Fin 1024) :
    val_main_v12 (F := Ideal) x0 x1 x5 x6 x7 x8 (ix2 r q) = pre x0 x1 x5 x6 x7 x8 r (colF q) := by
  rw [val_main_v12_apply]
  have e : idx_main_v12 (ix2 r q) = ix2 r (colF q) := funext fun a => Fin.ext (by
    match a with
    | ⟨0, _⟩ => rfl
    | ⟨1, _⟩ => exact Nat.add_comm 1024 q.val)
  rw [e, pre_eq]

theorem gateG (r : Fin 4096) (q : Fin 1024) :
    val_main_v13 (F := Ideal) x0 x1 x5 x6 x7 x8 (ix2 r q) = pre x0 x1 x5 x6 x7 x8 r (colG q) := by
  rw [val_main_v13_apply]
  have e : idx_main_v13 (ix2 r q) = ix2 r (colG q) := funext fun a => Fin.ext (by
    match a with
    | ⟨0, _⟩ => rfl
    | ⟨1, _⟩ => exact Nat.add_comm 2048 q.val)
  rw [e, pre_eq]

theorem gateO (r : Fin 4096) (q : Fin 1024) :
    val_main_v14 (F := Ideal) x0 x1 x5 x6 x7 x8 (ix2 r q) = pre x0 x1 x5 x6 x7 x8 r (colO q) := by
  rw [val_main_v14_apply]
  have e : idx_main_v14 (ix2 r q) = ix2 r (colO q) := funext fun a => Fin.ext (by
    match a with
    | ⟨0, _⟩ => rfl
    | ⟨1, _⟩ => exact Nat.add_comm 3072 q.val)
  rw [e, pre_eq]

/-- The three logistic functions, spelt 1 / (1 + e^(-z)). -/
theorem sigI (r : Fin 4096) (q : Fin 1024) :
    val_main_v20 (F := Ideal) x0 x1 x5 x6 x7 x8 (ix2 r q) = Ideal.logistic (pre x0 x1 x5 x6 x7 x8 r (colI q)) := by
  rw [val_main_v20_apply, val_main_v19_apply, val_main_cst_0_apply, val_main_v18_apply, val_main_v17_apply,
    val_main_cst_apply, val_main_v16_apply, val_main_v15_apply, gateI]
  exact logistic_spelt _

theorem sigF (r : Fin 4096) (q : Fin 1024) :
    val_main_v26 (F := Ideal) x0 x1 x5 x6 x7 x8 (ix2 r q) = Ideal.logistic (pre x0 x1 x5 x6 x7 x8 r (colF q)) := by
  rw [val_main_v26_apply, val_main_v25_apply, val_main_cst_2_apply, val_main_v24_apply, val_main_v23_apply,
    val_main_cst_1_apply, val_main_v22_apply, val_main_v21_apply, gateF]
  exact logistic_spelt _

theorem sigO (r : Fin 4096) (q : Fin 1024) :
    val_main_v33 (F := Ideal) x0 x1 x5 x6 x7 x8 (ix2 r q) = Ideal.logistic (pre x0 x1 x5 x6 x7 x8 r (colO q)) := by
  rw [val_main_v33_apply, val_main_v32_apply, val_main_cst_4_apply, val_main_v31_apply, val_main_v30_apply,
    val_main_cst_3_apply, val_main_v29_apply, val_main_v28_apply, gateO]
  exact logistic_spelt _

/-- A noise level's square root, laid [1] → [1, 1] → the whole batch, reads the one number. -/
theorem noise_e (r : Fin 4096) (q : Fin 1024) : val_main_v39 (F := Ideal) x4 (ix2 r q) = Ideal.sqrt (x4 (ix1 0)) := by
  rw [val_main_v39_apply, val_main_v38_apply, val_main_v37_apply]
  exact congrArg (fun i => Ideal.sqrt (x4 i)) (funext fun a => Fin.ext (by match a with | ⟨0, _⟩ => rfl))

theorem noise_q (r : Fin 4096) (q : Fin 1024) : val_main_v46 (F := Ideal) x3 (ix2 r q) = Ideal.sqrt (x3 (ix1 0)) := by
  rw [val_main_v46_apply, val_main_v45_apply, val_main_v44_apply]
  exact congrArg (fun i => Ideal.sqrt (x3 i)) (funext fun a => Fin.ext (by match a with | ⟨0, _⟩ => rfl))

/-- The reference's new cell state at (r, q). -/
theorem cy_at (r : Fin 4096) (q : Fin 1024) :
    val_main_v41 (F := Ideal) x0 x1 x2 x4 x5 x6 x7 x8 x9 (ix2 r q) = cyAt x0 x1 x2 x4 x5 x6 x7 x8 x9 r q := by
  rw [val_main_v41_apply, val_main_v36_apply, val_main_v34_apply, val_main_v35_apply, val_main_v27_apply, val_main_v40_apply,
    sigF, sigI, gateG, noise_e]
  rfl

/-- The reference's new hidden state at (r, q). -/
theorem hy_at (r : Fin 4096) (q : Fin 1024) :
    val_main_v48 (F := Ideal) x0 x1 x2 x3 x4 x5 x6 x7 x8 x9 x10 (ix2 r q) = hyAt x0 x1 x2 x3 x4 x5 x6 x7 x8 x9 x10 r q := by
  rw [val_main_v48_apply, val_main_v43_apply, val_main_v42_apply, val_main_v47_apply, sigO, cy_at, noise_q]
  rfl

/-- The reference's two results are the cell's two arrays. -/
theorem cy_eq : val_main_v41 (F := Ideal) x0 x1 x2 x4 x5 x6 x7 x8 x9 = cy x0 x1 x2 x4 x5 x6 x7 x8 x9 := by
  funext i
  obtain ⟨r, q, rfl⟩ : ∃ (r : Fin 4096) (q : Fin 1024), i = ix2 r q := ⟨i 0, i 1, eq_ix2 i⟩
  exact cy_at x0 x1 x2 x4 x5 x6 x7 x8 x9 r q

theorem hy_eq : val_main_v48 (F := Ideal) x0 x1 x2 x3 x4 x5 x6 x7 x8 x9 x10 = hy x0 x1 x2 x3 x4 x5 x6 x7 x8 x9 x10 := by
  funext i
  obtain ⟨r, q, rfl⟩ : ∃ (r : Fin 4096) (q : Fin 1024), i = ix2 r q := ⟨i 0, i 1, eq_ix2 i⟩
  exact hy_at x0 x1 x2 x3 x4 x5 x6 x7 x8 x9 x10 r q

end Cert.LstmCell.Ref

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.KernelBlock.lean ====
/-
  One block of the kernel, read entry by entry.

  At a grid point the body holds 128 batch rows of the input, the hidden state, the cell state and the two noise arrays, and
  the whole of both weight matrices, both biases and both noise levels. It forms the 128 × 4096 pre-activations as
  ((x · W_ihᵀ + h · W_hhᵀ) + b_ih) + b_hh — each product contracted on BOTH operands' second axis, rows of the block against
  ROWS of the weights, the operands rounded to a shorter format first, which changes nothing at the exact values —, cuts the
  four gates out as column ranges and combines them. The generated value module already reads the two stored blocks at a
  block index in terms of those pre-activations; here the pre-activations are read as the two sums and the two biases, and
  each stored entry is identified with the cell of LstmSpec at the batch row the block's row stands for.
-/
import proofs.«128448_j54614804136122_1_alg».proof.Proof.KernelValueP
import proofs.«128448_j54614804136122_1_alg».proof.Proof.LstmSpec
import proofs.«128448_j54614804136122_1_alg».proof.Proof.LibTransposedRhsMatmul
import Idealize.ShloMosaic.Lib.ValueLayout
import Idealize.ShloMosaic.Lib.Pipeline.Value

noncomputable section

open scoped BigOperators

namespace Cert.LstmCell.Block

open Cert.KernelIdeal Cert.KernelIdeal.Gen Cert.KernelIdeal.ValueP Idealize.ShloMosaic Idealize.ShloMosaic.ValueIdx Cert.LstmCell

variable (P0 P1 : Vec Ideal S128x1024 .f32) (P2 P3 : Vec Ideal S4096x1024 .bf16) (P4 P5 : Vec Ideal S4096 .f32)
  (P6 : Vec Ideal S128x1024 .f32) (P7 : Vec Ideal S1 .f32) (P8 : Vec Ideal S128x1024 .f32) (P9 : Vec Ideal S1 .f32)
  (P10 : Vec Ideal S128x1024 .f32)

/-- The block's pre-activation at (p, j): row p of the input block against row j of the input weights, row p of the
    hidden block against row j of the hidden weights, and the two biases' entries j. -/
theorem pre_block (p : Fin 128) (j : Fin 4096) :
    k0_pay2 P0 P1 P2 P3 P4 P5 (ix2 p j)
      = (∑ k : Fin 1024, P0 (ix2 p k) * P2 (ix2 j k)) + (∑ k : Fin 1024, P1 (ix2 p k) * P3 (ix2 j k))
          + P4 (ix1 j) + P5 (ix1 j) := by
  unfold k0_pay2
  show _ + _ + _ + _ = _
  refine congrArg₂ (· + ·) (congrArg₂ (· + ·) (congrArg₂ (· + ·) ?_ ?_) ?_) ?_
  · refine (TransposedRhsMatmul.transposedRhsMatmul_apply (M := 128) (K := 1024) (N := 4096) none _ _ p j).trans ?_
    rw [shapeCast_self]; rfl
  · refine (TransposedRhsMatmul.transposedRhsMatmul_apply (M := 128) (K := 1024) (N := 4096) none _ _ p j).trans ?_
    rw [shapeCast_self]; rfl
  · exact (broadcastTo_1b_ab_apply _ _ p j).trans (shapeCast_a_1a_apply P4 _ 0 j)
  · exact (broadcastTo_1b_ab_apply _ _ p j).trans (shapeCast_a_1a_apply P5 _ 0 j)

variable (X H CX : Mat.Idx → EReal) (NQ NE : One.Idx → EReal) (WI WH : Mat.Idx → EReal) (BI BH : Col.Idx → EReal)
  (EC EH : Mat.Idx → EReal)

/-- When row p of the two blocks is batch row r, and the body holds the whole weights and biases, the block's
    pre-activation at (p, j) is the cell's at (r, j). -/
theorem pre_block_at (r : Fin 4096) (p : Fin 128) (j : Fin 4096)
    (h0 : ∀ k : Fin 1024, P0 (ix2 p k) = X (ix2 r k)) (h1 : ∀ k : Fin 1024, P1 (ix2 p k) = H (ix2 r k))
    (h2 : ∀ i, P2 i = WI i) (h3 : ∀ i, P3 i = WH i) (h4 : ∀ i, P4 i = BI i) (h5 : ∀ i, P5 i = BH i) :
    k0_pay2 P0 P1 P2 P3 P4 P5 (ix2 p j) = pre X H WI WH BI BH r j := by
  rw [pre_block, h4, h5]
  unfold pre
  refine congrArg₂ (· + ·) (congrArg₂ (· + ·) (congrArg₂ (· + ·) ?_ ?_) rfl) rfl
  · exact Finset.sum_congr rfl fun k _ => by rw [h0 k, h2]
  · exact Finset.sum_congr rfl fun k _ => by rw [h1 k, h3]

/-- The block stored as the new cell state, at (p, q), is the cell's new state at (r, q). -/
theorem cy_block_at (r : Fin 4096) (p : Fin 128) (q : Fin 1024)
    (h0 : ∀ k : Fin 1024, P0 (ix2 p k) = X (ix2 r k)) (h1 : ∀ k : Fin 1024, P1 (ix2 p k) = H (ix2 r k))
    (h2 : ∀ i, P2 i = WI i) (h3 : ∀ i, P3 i = WH i) (h4 : ∀ i, P4 i = BI i) (h5 : ∀ i, P5 i = BH i)
    (h6 : P6 (ix2 p q) = CX (ix2 r q)) (h7 : P7 (ix1 0) = Ideal.sqrt (NE (ix1 0))) (h8 : P8 (ix2 p q) = EC (ix2 r q)) :
    E12 P0 P1 P2 P3 P4 P5 P6 P7 P8 (ix2 p q) = cyAt X H CX NE WI WH BI BH EC r q := by
  have i0 : ix12_0 (ix2 p q) = ix2 p (colF q) := funext fun a => Fin.ext (by match a with | ⟨0, _⟩ => rfl | ⟨1, _⟩ => rfl)
  have i1 : ix12_1 (ix2 p q) = ix2 p q := funext fun a => Fin.ext (by match a with | ⟨0, _⟩ => rfl | ⟨1, _⟩ => rfl)
  have i2 : ix12_2 (ix2 p q) = ix2 p (colI q) := funext fun a => Fin.ext (by match a with | ⟨0, _⟩ => rfl | ⟨1, _⟩ => rfl)
  have i3 : ix12_3 (ix2 p q) = ix2 p (colG q) := funext fun a => Fin.ext (by match a with | ⟨0, _⟩ => rfl | ⟨1, _⟩ => rfl)
  have i4 : ix12_4 (ix2 p q) = ix1 0 := funext fun a => Fin.ext (by match a with | ⟨0, _⟩ => rfl)
  have i5 : ix12_5 (ix2 p q) = ix2 p q := funext fun a => Fin.ext (by match a with | ⟨0, _⟩ => rfl | ⟨1, _⟩ => rfl)
  unfold E12
  rw [i0, i1, i2, i3, i4, i5, h6, h7, h8,
    pre_block_at P0 P1 P2 P3 P4 P5 X H WI WH BI BH r p (colF q) h0 h1 h2 h3 h4 h5,
    pre_block_at P0 P1 P2 P3 P4 P5 X H WI WH BI BH r p (colI q) h0 h1 h2 h3 h4 h5,
    pre_block_at P0 P1 P2 P3 P4 P5 X H WI WH BI BH r p (colG q) h0 h1 h2 h3 h4 h5]
  rfl

/-- The block stored as the new hidden state, at (p, q), is the cell's new hidden state at (r, q). -/
theorem hy_block_at (r : Fin 4096) (p : Fin 128) (q : Fin 1024)
    (h0 : ∀ k : Fin 1024, P0 (ix2 p k) = X (ix2 r k)) (h1 : ∀ k : Fin 1024, P1 (ix2 p k) = H (ix2 r k))
    (h2 : ∀ i, P2 i = WI i) (h3 : ∀ i, P3 i = WH i) (h4 : ∀ i, P4 i = BI i) (h5 : ∀ i, P5 i = BH i)
    (h6 : P6 (ix2 p q) = CX (ix2 r q)) (h7 : P7 (ix1 0) = Ideal.sqrt (NE (ix1 0))) (h8 : P8 (ix2 p q) = EC (ix2 r q))
    (h9 : P9 (ix1 0) = Ideal.sqrt (NQ (ix1 0))) (h10 : P10 (ix2 p q) = EH (ix2 r q)) :
    E11 P0 P1 P2 P3 P4 P5 P6 P7 P8 P9 P10 (ix2 p q) = hyAt X H CX NQ NE WI WH BI BH EC EH r q := by
  have i0 : ix11_0 (ix2 p q) = ix2 p (colO q) := funext fun a => Fin.ext (by match a with | ⟨0, _⟩ => rfl | ⟨1, _⟩ => rfl)
  have i1 : ix11_1 (ix2 p q) = ix2 p (colF q) := funext fun a => Fin.ext (by match a with | ⟨0, _⟩ => rfl | ⟨1, _⟩ => rfl)
  have i2 : ix11_2 (ix2 p q) = ix2 p q := funext fun a => Fin.ext (by match a with | ⟨0, _⟩ => rfl | ⟨1, _⟩ => rfl)
  have i3 : ix11_3 (ix2 p q) = ix2 p (colI q) := funext fun a => Fin.ext (by match a with | ⟨0, _⟩ => rfl | ⟨1, _⟩ => rfl)
  have i4 : ix11_4 (ix2 p q) = ix2 p (colG q) := funext fun a => Fin.ext (by match a with | ⟨0, _⟩ => rfl | ⟨1, _⟩ => rfl)
  have i5 : ix11_5 (ix2 p q) = ix1 0 := funext fun a => Fin.ext (by match a with | ⟨0, _⟩ => rfl)
  have i6 : ix11_6 (ix2 p q) = ix2 p q := funext fun a => Fin.ext (by match a with | ⟨0, _⟩ => rfl | ⟨1, _⟩ => rfl)
  have i7 : ix11_7 (ix2 p q) = ix1 0 := funext fun a => Fin.ext (by match a with | ⟨0, _⟩ => rfl)
  have i8 : ix11_8 (ix2 p q) = ix2 p q := funext fun a => Fin.ext (by match a with | ⟨0, _⟩ => rfl | ⟨1, _⟩ => rfl)
  unfold E11
  rw [i0, i1, i2, i3, i4, i5, i6, i7, i8, h6, h7, h8, h9, h10,
    pre_block_at P0 P1 P2 P3 P4 P5 X H WI WH BI BH r p (colO q) h0 h1 h2 h3 h4 h5,
    pre_block_at P0 P1 P2 P3 P4 P5 X H WI WH BI BH r p (colF q) h0 h1 h2 h3 h4 h5,
    pre_block_at P0 P1 P2 P3 P4 P5 X H WI WH BI BH r p (colI q) h0 h1 h2 h3 h4 h5,
    pre_block_at P0 P1 P2 P3 P4 P5 X H WI WH BI BH r p (colG q) h0 h1 h2 h3 h4 h5]
  rfl

end Cert.LstmCell.Block

end
-- ==== Proof.KernelArray.lean ====
/-
  From the blocks to the two result arrays.

  The grid has 32 points; point t works on batch rows 128 t … 128 t + 127. Its blocks of the input, the hidden state, the
  cell state and the two noise arrays are those rows of the arguments; the weights, the biases and the noise levels are
  held whole at every point — the weights as the host rounded them to a shorter format before the call (the identity at
  the exact values), the noise levels as the host's square roots of the two arguments. What point t writes back to each
  result is therefore rows 128 t … 128 t + 127 of the cell of LstmSpec on the arguments, and since the 32 row blocks tile
  the 4096 rows, each result array ends as the cell's array.
-/
import proofs.«128448_j54614804136122_1_alg».proof.Proof.KernelBlock
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.LstmCell.Arr

open Cert.KernelIdeal Cert.KernelIdeal.Gen Cert.KernelIdeal.ValueP Idealize.ShloMosaic.ValueIdx Cert.LstmCell

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The batch row that row p of point number n's blocks stands for. -/
def row (n : Nat) (hn : n < 32) (p : Fin 128) : Fin 4096 := ⟨128 * n + p.val, by have := p.isLt; omega⟩

theorem lt32 (t : Fin cfg0.N) : t.val < 32 := by
  have h : cfg0.N = 32 := N_0
  have := t.isLt
  omega

/-- The printed index maps, decided over the 32 points: the five batch-tiled inputs and the two results sit at block row
    t, everything else at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ win0_8.index t (0 : Fin 1) = 0
    ∧ win0_9.index t (0 : Fin 1) = 0
    ∧ win0_10.index t (0 : Fin 1) = 0
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## What the region finds in the four arrays the host wrote -/

/-- The input weights rounded to the shorter format are the input weights. -/
theorem V_wih (c : Dev nD) : (V m c main_v0 : S4096x1024.Idx → EReal) = m ((c : Thread nD τ).loc main_arg5) := by
  dsimp only [Gen.V, Gen.hostOps0]; after_results; rfl

/-- The hidden weights rounded to the shorter format are the hidden weights. -/
theorem V_whh (c : Dev nD) : (V m c main_v1 : S4096x1024.Idx → EReal) = m ((c : Thread nD τ).loc main_arg6) := by
  dsimp only [Gen.V, Gen.hostOps0]; after_results; rfl

/-- The first noise level as the region finds it: the square root of the argument. -/
theorem V_nq (c : Dev nD) : (V m c main_v2 : S1.Idx → EReal) = fun i => Ideal.sqrt ((m ((c : Thread nD τ).loc main_arg3) : S1.Idx → EReal) i) := by
  dsimp only [Gen.V, Gen.hostOps0]; after_results; rfl

/-- The second noise level as the region finds it. -/
theorem V_ne (c : Dev nD) : (V m c main_v3 : S1.Idx → EReal) = fun i => Ideal.sqrt ((m ((c : Thread nD τ).loc main_arg4) : S1.Idx → EReal) i) := by
  dsimp only [Gen.V, Gen.hostOps0]; after_results; rfl

/-! ## The blocks at point t, read off the arguments -/

/-- Row p of the input's block at point t is batch row 128 t + p of the input. -/
theorem blk_x (c : Dev nD) (t : Fin cfg0.N) (p : Fin 128) (k : Fin 1024) :
    (iblk m c 0 t : Vec Ideal S128x1024 .f32) (ix2 p k)
      = (m ((c : Thread nD τ).loc main_arg0) : Mat.Idx → EReal) (ix2 (row t.val (lt32 t) p) k) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 128 + 1 * p.val = 128 * t.val + p.val; rw [e0]; omega
  | ⟨1, _⟩ => show win0_0.index t (1 : Fin 2) * 1024 + 1 * k.val = k.val; rw [e1]; omega

/-- The same for the hidden state. -/
theorem blk_h (c : Dev nD) (t : Fin cfg0.N) (p : Fin 128) (k : Fin 1024) :
    (iblk m c 1 t : Vec Ideal S128x1024 .f32) (ix2 p k)
      = (m ((c : Thread nD τ).loc main_arg1) : Mat.Idx → EReal) (ix2 (row t.val (lt32 t) p) k) := by
  obtain ⟨-, ⟨e0, e1⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 128 + 1 * p.val = 128 * t.val + p.val; rw [e0]; omega
  | ⟨1, _⟩ => show win0_1.index t (1 : Fin 2) * 1024 + 1 * k.val = k.val; rw [e1]; omega

/-- The same for the cell state. -/
theorem blk_cx (c : Dev nD) (t : Fin cfg0.N) (p : Fin 128) (k : Fin 1024) :
    (iblk m c 2 t : Vec Ideal S128x1024 .f32) (ix2 p k)
      = (m ((c : Thread nD τ).loc main_arg2) : Mat.Idx → EReal) (ix2 (row t.val (lt32 t) p) k) := by
  obtain ⟨-, -, ⟨e0, e1⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 128 + 1 * p.val = 128 * t.val + p.val; rw [e0]; omega
  | ⟨1, _⟩ => show win0_2.index t (1 : Fin 2) * 1024 + 1 * k.val = k.val; rw [e1]; omega

/-- The same for the cell state's noise (the fourth operand of the call is the tenth argument). -/
theorem blk_ec (c : Dev nD) (t : Fin cfg0.N) (p : Fin 128) (k : Fin 1024) :
    (iblk m c 3 t : Vec Ideal S128x1024 .f32) (ix2 p k)
      = (m ((c : Thread nD τ).loc main_arg9) : Mat.Idx → EReal) (ix2 (row t.val (lt32 t) p) k) := by
  obtain ⟨-, -, -, ⟨e0, e1⟩, -⟩ := idx_facts t
  unfold iblk
  rw [View.read_apply]
  show V m c main_arg9 _ = _
  rw [V_main_arg9]
  refine congrArg _ (funext fun a => Fin.ext ?_)
  match a with
  | ⟨0, _⟩ => show win0_3.index t (0 : Fin 2) * 128 + 1 * p.val = 128 * t.val + p.val; rw [e0]; omega
  | ⟨1, _⟩ => show win0_3.index t (1 : Fin 2) * 1024 + 1 * k.val = k.val; rw [e1]; omega

/-- The same for the hidden state's noise. -/
theorem blk_eh (c : Dev nD) (t : Fin cfg0.N) (p : Fin 128) (k : Fin 1024) :
    (iblk m c 4 t : Vec Ideal S128x1024 .f32) (ix2 p k)
      = (m ((c : Thread nD τ).loc main_arg10) : Mat.Idx → EReal) (ix2 (row t.val (lt32 t) p) k) := by
  obtain ⟨-, -, -, -, ⟨e0, e1⟩, -⟩ := idx_facts t
  unfold iblk
  rw [View.read_apply]
  show V m c main_arg10 _ = _
  rw [V_main_arg10]
  refine congrArg _ (funext fun a => Fin.ext ?_)
  match a with
  | ⟨0, _⟩ => show win0_4.index t (0 : Fin 2) * 128 + 1 * p.val = 128 * t.val + p.val; rw [e0]; omega
  | ⟨1, _⟩ => show win0_4.index t (1 : Fin 2) * 1024 + 1 * k.val = k.val; rw [e1]; omega

/-- The input weights are held whole at every point. -/
theorem blk_wih (c : Dev nD) (t : Fin cfg0.N) (i : S4096x1024.Idx) :
    (iblk m c 5 t : Vec Ideal S4096x1024 .bf16) i = (m ((c : Thread nD τ).loc main_arg5) : Mat.Idx → EReal) i := by
  obtain ⟨-, -, -, -, -, ⟨e0, e1⟩, -⟩ := idx_facts t
  have hi0 : (i 0).val < 4096 := (i 0).isLt
  have hi1 : (i 1).val < 1024 := (i 1).isLt
  unfold iblk
  rw [View.read_apply]
  show (V m c main_v0 : S4096x1024.Idx → EReal) _ = _
  rw [V_wih]
  refine congrArg _ (funext fun a => Fin.ext ?_)
  match a with
  | ⟨0, _⟩ => show win0_5.index t (0 : Fin 2) * 4096 + 1 * (i 0).val = (i 0).val; rw [e0]; omega
  | ⟨1, _⟩ => show win0_5.index t (1 : Fin 2) * 1024 + 1 * (i 1).val = (i 1).val; rw [e1]; omega

/-- So are the hidden weights. -/
theorem blk_whh (c : Dev nD) (t : Fin cfg0.N) (i : S4096x1024.Idx) :
    (iblk m c 6 t : Vec Ideal S4096x1024 .bf16) i = (m ((c : Thread nD τ).loc main_arg6) : Mat.Idx → EReal) i := by
  obtain ⟨-, -, -, -, -, -, ⟨e0, e1⟩, -⟩ := idx_facts t
  have hi0 : (i 0).val < 4096 := (i 0).isLt
  have hi1 : (i 1).val < 1024 := (i 1).isLt
  unfold iblk
  rw [View.read_apply]
  show (V m c main_v1 : S4096x1024.Idx → EReal) _ = _
  rw [V_whh]
  refine congrArg _ (funext fun a => Fin.ext ?_)
  match a with
  | ⟨0, _⟩ => show win0_6.index t (0 : Fin 2) * 4096 + 1 * (i 0).val = (i 0).val; rw [e0]; omega
  | ⟨1, _⟩ => show win0_6.index t (1 : Fin 2) * 1024 + 1 * (i 1).val = (i 1).val; rw [e1]; omega

/-- So is the input bias. -/
theorem blk_bih (c : Dev nD) (t : Fin cfg0.N) (i : S4096.Idx) :
    (iblk m c 7 t : Vec Ideal S4096 .f32) i = (m ((c : Thread nD τ).loc main_arg7) : Col.Idx → EReal) i := by
  obtain ⟨-, -, -, -, -, -, -, e0, -⟩ := idx_facts t
  have hi0 : (i 0).val < 4096 := (i 0).isLt
  unfold iblk
  rw [View.read_apply]
  show V m c main_arg7 _ = _
  rw [V_main_arg7]
  refine congrArg _ (funext fun a => Fin.ext ?_)
  match a with
  | ⟨0, _⟩ => show win0_7.index t (0 : Fin 1) * 4096 + 1 * (i 0).val = (i 0).val; rw [e0]; omega

/-- So is the hidden bias. -/
theorem blk_bhh (c : Dev nD) (t : Fin cfg0.N) (i : S4096.Idx) :
    (iblk m c 8 t : Vec Ideal S4096 .f32) i = (m ((c : Thread nD τ).loc main_arg8) : Col.Idx → EReal) i := by
  obtain ⟨-, -, -, -, -, -, -, -, e0, -⟩ := idx_facts t
  have hi0 : (i 0).val < 4096 := (i 0).isLt
  unfold iblk
  rw [View.read_apply]
  show V m c main_arg8 _ = _
  rw [V_main_arg8]
  refine congrArg _ (funext fun a => Fin.ext ?_)
  match a with
  | ⟨0, _⟩ => show win0_8.index t (0 : Fin 1) * 4096 + 1 * (i 0).val = (i 0).val; rw [e0]; omega

/-- The hidden state's noise level at every point: the square root of the argument. -/
theorem blk_nq (c : Dev nD) (t : Fin cfg0.N) :
    (iblk m c 9 t : Vec Ideal S1 .f32) (ix1 0) = Ideal.sqrt ((m ((c : Thread nD τ).loc main_arg3) : One.Idx → EReal) (ix1 0)) := by
  obtain ⟨-, -, -, -, -, -, -, -, -, e0, -⟩ := idx_facts t
  unfold iblk
  rw [View.read_apply]
  show (V m c main_v2 : S1.Idx → EReal) _ = _
  rw [V_nq]
  refine congrArg (fun i => Ideal.sqrt ((m ((c : Thread nD τ).loc main_arg3) : One.Idx → EReal) i)) (funext fun a => Fin.ext ?_)
  match a with
  | ⟨0, _⟩ => show win0_9.index t (0 : Fin 1) * 1 + 1 * 0 = 0; rw [e0]

/-- The cell state's noise level at every point. -/
theorem blk_ne (c : Dev nD) (t : Fin cfg0.N) :
    (iblk m c 10 t : Vec Ideal S1 .f32) (ix1 0) = Ideal.sqrt ((m ((c : Thread nD τ).loc main_arg4) : One.Idx → EReal) (ix1 0)) := by
  obtain ⟨-, -, -, -, -, -, -, -, -, -, e0, -⟩ := idx_facts t
  unfold iblk
  rw [View.read_apply]
  show (V m c main_v3 : S1.Idx → EReal) _ = _
  rw [V_ne]
  refine congrArg (fun i => Ideal.sqrt ((m ((c : Thread nD τ).loc main_arg4) : One.Idx → EReal) i)) (funext fun a => Fin.ext ?_)
  match a with
  | ⟨0, _⟩ => show win0_10.index t (0 : Fin 1) * 1 + 1 * 0 = 0; rw [e0]

/-! ## What point t writes back, and the two arrays after the run -/

/-- A block of 128 rows whose entry (p, q) is G at batch row 128 t + p is block t of G, for the first result. -/
theorem cut_eq_read11 (t : Fin cfg0.N) (f : Vec Ideal S128x1024 .f32) (G : Mat.Idx → EReal)
    (h : ∀ (p : Fin 128) (q : Fin 1024), f (ix2 p q) = G (ix2 (row t.val (lt32 t) p) q)) :
    (cfg0.win 11).cut (grid0.coords t) f = ((cfg0.win 11).blk t).view.read (Elt Ideal) G := by
  obtain ⟨-, -, -, -, -, -, -, -, -, -, -, ⟨e0, e1⟩, -⟩ := idx_facts t
  funext y
  have hy0 : (y 0).val < 128 := (y 0).isLt
  have hy1 : (y 1).val < 1024 := (y 1).isLt
  show f y = G (((cfg0.win 11).blk t).view.emb y)
  refine ((congrArg f (?_ : y = ix2 ⟨(y 0).val, hy0⟩ ⟨(y 1).val, hy1⟩)).trans (h _ _)).trans (congrArg G ?_)
  · funext a; match a with | ⟨0, _⟩ => rfl | ⟨1, _⟩ => rfl
  · funext a; apply Fin.ext
    match a with
    | ⟨0, _⟩ => show 128 * t.val + (y 0).val = win0_11.index t (0 : Fin 2) * 128 + 1 * (y 0).val; rw [e0]; omega
    | ⟨1, _⟩ => show (y 1).val = win0_11.index t (1 : Fin 2) * 1024 + 1 * (y 1).val; rw [e1]; omega

/-- The same for the second result. -/
theorem cut_eq_read12 (t : Fin cfg0.N) (f : Vec Ideal S128x1024 .f32) (G : Mat.Idx → EReal)
    (h : ∀ (p : Fin 128) (q : Fin 1024), f (ix2 p q) = G (ix2 (row t.val (lt32 t) p) q)) :
    (cfg0.win 12).cut (grid0.coords t) f = ((cfg0.win 12).blk t).view.read (Elt Ideal) G := by
  obtain ⟨-, -, -, -, -, -, -, -, -, -, -, -, ⟨e0, e1⟩⟩ := idx_facts t
  funext y
  have hy0 : (y 0).val < 128 := (y 0).isLt
  have hy1 : (y 1).val < 1024 := (y 1).isLt
  show f y = G (((cfg0.win 12).blk t).view.emb y)
  refine ((congrArg f (?_ : y = ix2 ⟨(y 0).val, hy0⟩ ⟨(y 1).val, hy1⟩)).trans (h _ _)).trans (congrArg G ?_)
  · funext a; match a with | ⟨0, _⟩ => rfl | ⟨1, _⟩ => rfl
  · funext a; apply Fin.ext
    match a with
    | ⟨0, _⟩ => show 128 * t.val + (y 0).val = win0_12.index t (0 : Fin 2) * 128 + 1 * (y 0).val; rw [e0]; omega
    | ⟨1, _⟩ => show (y 1).val = win0_12.index t (1 : Fin 2) * 1024 + 1 * (y 1).val; rw [e1]; omega

/-- The new hidden state of the arguments as launched. -/
abbrev hyOf (c : Dev nD) : Mat.Idx → EReal :=
  hy (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The new cell state of the arguments as launched. -/
abbrev cyOf (c : Dev nD) : Mat.Idx → EReal :=
  cy (m ((c : Thread nD τ).loc main_arg0)) (m ((c : Thread nD τ).loc main_arg1)) (m ((c : Thread nD τ).loc main_arg2))
    (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- Point t writes rows 128 t … 128 t + 127 of the new hidden state back to the first result. -/
theorem flushed11_eq (c : Dev nD) (t : Fin cfg0.N) :
    (dats m 0 c).flushed 11 t = ((cfg0.win 11).blk t).view.read (Elt Ideal) (hyOf m c) := by
  rw [ValueP.flushed11]
  refine cut_eq_read11 t _ _ fun p q => ?_
  unfold out0_11
  simp only [View.ld_unit_zero (S := S128x1024) hz2, View.ld_unit_zero (S := S4096x1024) hz2,
    View.ld_unit_zero (S := S4096) hz1, View.ld_unit_zero (S := S1) hz1]
  refine (ValueP.canon11_eq (iblk m c 0 t) (iblk m c 1 t) (iblk m c 5 t) (iblk m c 6 t) (iblk m c 7 t) (iblk m c 8 t)
    (iblk m c 2 t) (iblk m c 10 t) (iblk m c 3 t) (iblk m c 9 t) (iblk m c 4 t) (ix2 p q)).trans ?_
  exact Block.hy_block_at (iblk m c 0 t) (iblk m c 1 t) (iblk m c 5 t) (iblk m c 6 t) (iblk m c 7 t) (iblk m c 8 t)
    (iblk m c 2 t) (iblk m c 10 t) (iblk m c 3 t) (iblk m c 9 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (row t.val (lt32 t) p) p q
    (fun k => blk_x m c t p k) (fun k => blk_h m c t p k) (fun i => blk_wih m c t i) (fun i => blk_whh m c t i)
    (fun i => blk_bih m c t i) (fun i => blk_bhh m c t i) (blk_cx m c t p q) (blk_ne m c t) (blk_ec m c t p q)
    (blk_nq m c t) (blk_eh m c t p q)

/-- Point t writes rows 128 t … 128 t + 127 of the new cell state back to the second result. -/
theorem flushed12_eq (c : Dev nD) (t : Fin cfg0.N) :
    (dats m 0 c).flushed 12 t = ((cfg0.win 12).blk t).view.read (Elt Ideal) (cyOf m c) := by
  rw [ValueP.flushed12]
  refine cut_eq_read12 t _ _ fun p q => ?_
  unfold out0_12
  simp only [View.ld_unit_zero (S := S128x1024) hz2, View.ld_unit_zero (S := S4096x1024) hz2,
    View.ld_unit_zero (S := S4096) hz1, View.ld_unit_zero (S := S1) hz1]
  refine (ValueP.canon12_eq (iblk m c 0 t) (iblk m c 1 t) (iblk m c 5 t) (iblk m c 6 t) (iblk m c 7 t) (iblk m c 8 t)
    (iblk m c 2 t) (iblk m c 10 t) (iblk m c 3 t) (ix2 p q)).trans ?_
  exact Block.cy_block_at (iblk m c 0 t) (iblk m c 1 t) (iblk m c 5 t) (iblk m c 6 t) (iblk m c 7 t) (iblk m c 8 t)
    (iblk m c 2 t) (iblk m c 10 t) (iblk m c 3 t)
    (m ((c : Thread nD τ).loc main_arg0)) (m ((c : Thread nD τ).loc main_arg1)) (m ((c : Thread nD τ).loc main_arg2))
    (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
    (row t.val (lt32 t) p) p q
    (fun k => blk_x m c t p k) (fun k => blk_h m c t p k) (fun i => blk_wih m c t i) (fun i => blk_whh m c t i)
    (fun i => blk_bih m c t i) (fun i => blk_bhh m c t i) (blk_cx m c t p q) (blk_ne m c t) (blk_ec m c t p q)

/-- An index of the first result is in point t's block iff its row is among rows 128 t … 128 t + 127. -/
theorem mem_blk11 (t : Fin cfg0.N) (i : S4096x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v4_0).slice (win0_11.rect t)).set ↔ _
  rw [View.set_slice_whole, Rect.mem_set_unit]
  exact Iff.rfl

theorem mem_blk12 (t : Fin cfg0.N) (i : S4096x1024.Idx) :
    i ∈ ((cfg0.win 12).blk t).view.set ↔ ∀ a : Fin 2, win0_12.index t a * S128x1024.size a ≤ (i a).val ∧ (i a).val < win0_12.index t a * S128x1024.size a + S128x1024.size a := by
  show i ∈ ((View.whole main_v4_1).slice (win0_12.rect t)).set ↔ _
  rw [View.set_slice_whole, Rect.mem_set_unit]
  exact Iff.rfl

/-- The point whose block holds row r: number r / 128. -/
def pointOf (i : S4096x1024.Idx) : Fin cfg0.N :=
  ⟨(i 0).val / 128, by
    have h : cfg0.N = 32 := N_0
    have hi : (i 0).val < 4096 := (i 0).isLt
    rw [h]; omega⟩

/-- The first result after the run is the new hidden state: the 32 row blocks tile the 4096 rows. -/
theorem final11 (c : Dev nD) : (dats m 0 c).arrAt 11 cfg0.N = hyOf m c :=
  (dats m 0 c).arrAt_eq_of_cover 11 (hyOf m c) (fun t _ => flushed11_eq m c t) fun i => by
    have hi0 : (i 0).val < 4096 := (i 0).isLt
    have hi1 : (i 1).val < 1024 := (i 1).isLt
    obtain ⟨-, -, -, -, -, -, -, -, -, -, -, ⟨e0, e1⟩, -⟩ := idx_facts (pointOf i)
    have hv : (pointOf i).val = (i 0).val / 128 := rfl
    refine ⟨pointOf i, flush0_11 _, ?_⟩
    rw [mem_blk11]
    intro a
    match a with
    | ⟨0, _⟩ => show win0_11.index (pointOf i) (0 : Fin 2) * 128 ≤ (i 0).val ∧ (i 0).val < win0_11.index (pointOf i) (0 : Fin 2) * 128 + 128; rw [e0, hv]; omega
    | ⟨1, _⟩ => show win0_11.index (pointOf i) (1 : Fin 2) * 1024 ≤ (i 1).val ∧ (i 1).val < win0_11.index (pointOf i) (1 : Fin 2) * 1024 + 1024; rw [e1]; omega

/-- The second result after the run is the new cell state. -/
theorem final12 (c : Dev nD) : (dats m 0 c).arrAt 12 cfg0.N = cyOf m c :=
  (dats m 0 c).arrAt_eq_of_cover 12 (cyOf m c) (fun t _ => flushed12_eq m c t) fun i => by
    have hi0 : (i 0).val < 4096 := (i 0).isLt
    have hi1 : (i 1).val < 1024 := (i 1).isLt
    obtain ⟨-, -, -, -, -, -, -, -, -, -, -, -, ⟨e0, e1⟩⟩ := idx_facts (pointOf i)
    have hv : (pointOf i).val = (i 0).val / 128 := rfl
    refine ⟨pointOf i, flush0_12 _, ?_⟩
    rw [mem_blk12]
    intro a
    match a with
    | ⟨0, _⟩ => show win0_12.index (pointOf i) (0 : Fin 2) * 128 ≤ (i 0).val ∧ (i 0).val < win0_12.index (pointOf i) (0 : Fin 2) * 128 + 128; rw [e0, hv]; omega
    | ⟨1, _⟩ => show win0_12.index (pointOf i) (1 : Fin 2) * 1024 ≤ (i 1).val ∧ (i 1).val < win0_12.index (pointOf i) (1 : Fin 2) * 1024 + 1024; rw [e1]; omega

/-- The kernel's run: the two results end as the cell's two arrays of the arguments, the arguments unchanged. -/
theorem run : θ_run defs (onTc (τ := τ) (main (F := Ideal))) ⟨m, fun _ => 0, ρ⟩ fun r => ∀ c : Dev nD,
      r.2.mem ((c : Thread nD τ).loc main_v4_0) = hyOf m c
      ∧ r.2.mem ((c : Thread nD τ).loc main_v4_1) = cyOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (ValueP.run_blocks m ρ)

end Cert.LstmCell.Arr

end
-- ==== Proof.lean ====
/- The proof of `Cert.Claim` for a fused noisy LSTM cell against its plain reference.

   The kernel tiles the batch of 4096 rows into 32 blocks of 128. For each block it multiplies the block of the input by the
   input weights and the block of the hidden state by the hidden weights (both products contracted on the operands' second
   axis, that is against the ROWS of the weights, after rounding the operands to a shorter format), adds the two biases,
   cuts the four gates out of the 4096 pre-activation columns, and forms
       cy = σ(f) · cx + σ(i) · tanh(g) + √noise_e · eps_c,      hy = σ(o) · tanh(cy) + √noise_q · eps_h,
   the square roots taken by the host before the call. The reference does the same over the whole batch with the weights
   transposed first, adds the biases in another order, and spells the logistic function σ as 1 / (1 + e^(-z)).

   At the exact values (extended reals, every operation exact, a change of float format the identity) both are one
   function of the arguments, entry by entry: LstmSpec states it; RefIsCell reads the reference's stages at an index and
   finds it (the only law used: a sum of extended reals may be regrouped, which needs no finiteness); KernelBlock reads the
   block the body stores, KernelArray places the 32 blocks in the two result arrays. The three frames are the generated
   ones (the reference's is its generated run with the results dropped), and the idealization rewrote nothing, so what
   it must preserve is trivial. -/
import proofs.«128448_j54614804136122_1_alg».proof.Defs
import proofs.«128448_j54614804136122_1_alg».proof.Proof.Gen.Kernel
import proofs.«128448_j54614804136122_1_alg».proof.Proof.Gen.Kernel.Skeleton
import proofs.«128448_j54614804136122_1_alg».proof.Proof.Gen.Kernel.Launch
import proofs.«128448_j54614804136122_1_alg».proof.Proof.Gen.Kernel.Points
import proofs.«128448_j54614804136122_1_alg».proof.Proof.Gen.Kernel.Frame
import proofs.«128448_j54614804136122_1_alg».proof.Proof.Gen.KernelIdeal
import proofs.«128448_j54614804136122_1_alg».proof.Proof.Gen.KernelIdeal.Skeleton
import proofs.«128448_j54614804136122_1_alg».proof.Proof.Gen.KernelIdeal.Launch
import proofs.«128448_j54614804136122_1_alg».proof.Proof.Gen.KernelIdeal.Points
import proofs.«128448_j54614804136122_1_alg».proof.Proof.Gen.KernelIdeal.Frame
import proofs.«128448_j54614804136122_1_alg».proof.Proof.Gen.ReferenceIdeal
import proofs.«128448_j54614804136122_1_alg».proof.Proof.Gen.ReferenceIdeal.Run
import proofs.«128448_j54614804136122_1_alg».proof.Proof.Gen.ReferenceIdeal.Read
import proofs.«128448_j54614804136122_1_alg».proof.Proof.Gen.Pre_finite_inputs
import proofs.«128448_j54614804136122_1_alg».proof.Proof.KernelValueP
import proofs.«128448_j54614804136122_1_alg».proof.Proof.RefIsCell
import proofs.«128448_j54614804136122_1_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the cell's new hidden state and new cell state of
    those arguments. -/
theorem algebraic : Cert.algebraic_KernelIdeal_ReferenceIdeal := by
  intro m ρ m' ρ' _ hagree
  refine ⟨fun c => Cert.LstmCell.Arr.hyOf m c, fun c => Cert.LstmCell.Arr.cyOf m c, Cert.LstmCell.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v48_eq, Cert.LstmCell.Ref.hy_eq, h0, h1, h2, h3, h4, h5, h6, h7, h8, h9, h10]
  · obtain ⟨h0, h1, h2, h3, h4, h5, h6, h7, h8, h9, h10⟩ := hagree c
    rw [Cert.ReferenceIdeal.Read.val_main_v41_eq, Cert.LstmCell.Ref.cy_eq, h0, h1, h2, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
